-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S128x8192 : Shape := ⟨2, ![128, 8192]⟩
abbrev S128x1 : Shape := ⟨2, ![128, 1]⟩
abbrev S4096x8192x1 : Shape := ⟨3, ![4096, 8192, 1]⟩
abbrev S4096x8192x3 : Shape := ⟨3, ![4096, 8192, 3]⟩

abbrev nBuf : Space → Nat
  | .hbm => 7
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S4096x8192, .f32⟩
  | .hbm, ⟨3, _⟩ => ⟨S4096x8192x1, .f32⟩
  | .hbm, ⟨4, _⟩ => ⟨S4096x8192x1, .f32⟩
  | .hbm, ⟨5, _⟩ => ⟨S4096x8192x1, .f32⟩
  | .hbm, ⟨6, _⟩ => ⟨S4096x8192x3, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x8192, .f32⟩
  | .local _ .vmem, ⟨5, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x8192_S128x8192_0_0 : ∀ a, (![0, 0] : Fin 2 → Nat) a + S128x8192.size a ≤ S128x8192.size a
  h_S128x8192 : 0 < S128x8192.numel
  rotates_S128x8192_d1 : S128x8192.Rotates 1 none
  inb_S128x8192_S128x1_0_0 : ∀ a, (![0, 0] : Fin 2 → Nat) a + S128x1.size a ≤ S128x8192.size a
  h_S128x1 : 0 < S128x1.numel
  inb_S128x8192_S128x1_0_8191 : ∀ a, (![0, 8191] : Fin 2 → Nat) a + S128x1.size a ≤ S128x8192.size a
  bcast_S4096x8192_S4096x8192x1_0_1 : S4096x8192.BroadcastsInDim S4096x8192x1 (![0, 1] : Fin 2 → Fin S4096x8192x1.rank)
  concatenates_S4096x8192x1_S4096x8192x1_S4096x8192x1_S4096x8192x3_d2 : Shape.Concatenates [S4096x8192x1, S4096x8192x1, S4096x8192x1] S4096x8192x3 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S128x8192.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S4096x8191 : Shape := ⟨2, ![4096, 8191]⟩
abbrev S_ : Shape := ⟨0, ![]⟩
abbrev S4096x8192x1 : Shape := ⟨3, ![4096, 8192, 1]⟩
abbrev S4096x8192x3 : Shape := ⟨3, ![4096, 8192, 3]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8191, .f32⟩
  | .hbm, ⟨2, _⟩ => ⟨S_, .i32⟩
  | .hbm, ⟨3, _⟩ => ⟨S_, .f32⟩
  | .hbm, ⟨4, _⟩ => ⟨S4096x8192, .f32⟩
  | .hbm, ⟨5, _⟩ => ⟨S4096x8191, .f32⟩
  | .hbm, ⟨6, _⟩ => ⟨S_, .i32⟩
  | .hbm, ⟨7, _⟩ => ⟨S_, .f32⟩
  | .hbm, ⟨8, _⟩ => ⟨S4096x8192, .f32⟩
  | .hbm, ⟨9, _⟩ => ⟨S4096x8192x1, .f32⟩
  | .hbm, ⟨10, _⟩ => ⟨S4096x8192x1, .f32⟩
  | .hbm, ⟨11, _⟩ => ⟨S4096x8192x1, .f32⟩
  | .hbm, ⟨12, _⟩ => ⟨S4096x8192x3, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_call1_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  slices_S4096x8192_S4096x8191_0_0 : S4096x8192.Slices ![0, 0] S4096x8191
  pads_S4096x8191_S4096x8192_000_100 : S4096x8191.Pads (![0, 1] : Fin 2 → Nat) ![0, 0] ![0, 0] S4096x8192
  h_S_ : 0 < S_.numel
  slices_S4096x8192_S4096x8191_0_1 : S4096x8192.Slices ![0, 1] S4096x8191
  pads_S4096x8191_S4096x8192_000_010 : S4096x8191.Pads (![0, 0] : Fin 2 → Nat) ![0, 1] ![0, 0] S4096x8192
  bcast_S4096x8192_S4096x8192x1_0_1 : S4096x8192.BroadcastsInDim S4096x8192x1 (![0, 1] : Fin 2 → Fin S4096x8192x1.rank)
  concatenates_S4096x8192x1_S4096x8192x1_S4096x8192x1_S4096x8192x3_d2 : Shape.Concatenates [S4096x8192x1, S4096x8192x1, S4096x8192x1] S4096x8192x3 2

variable [Facts₀]

class Facts : Prop extends Facts₀ where

variable [Facts]
-- ==== Proof.KernelBlocks.lean ====
/-
  What the kernel body leaves in its two output blocks, as a function of the input block.

  The body loads the whole input block `x` (128 rows, all 8192 columns). Into the first output block it stores `x`
  rotated by one column to the right and then, over that, a column of zeros in column 0; into the second it stores `x`
  rotated by 8191 columns (one column to the left) and then a column of zeros in column 8191. A block's contents
  after these stores are the stores' payloads laid over one another, the LAST store on top: `View.canon` of the
  pieces, last first.
-/
import proofs.«111638_j82626580840944_2_alg».proof.Proof.Gen.Kernel.Skeleton
import Idealize.ShloMosaic.Lib.Pipeline.FrameBody
import Idealize.ShloMosaic.Lib.Pipeline.Value

noncomputable section

namespace Cert.Kernel.Hand

open Idealize.ShloMosaic Idealize.SL.Sem
open Cert.Kernel Cert.Kernel.Gen

variable {F : FTy → Type} [FloatOps F]

/-- The whole block. -/
abbrev rAll : Rect S128x8192 := Rect.unit (s := S128x8192) ![0, 0] S128x8192.size inb_S128x8192_S128x8192_0_0
/-- Its first column. -/
abbrev rFirst : Rect S128x8192 := Rect.unit (s := S128x8192) ![0, 0] S128x1.size inb_S128x8192_S128x1_0_0
/-- Its last column. -/
abbrev rLast : Rect S128x8192 := Rect.unit (s := S128x8192) ![0, 8191] S128x1.size inb_S128x8192_S128x1_0_8191

/-- The first output block after the body: the zero column over the block rotated right by one. -/
def out0_1 (x0 : Vec F S128x8192 .f32) : Vec F S128x8192 .f32 :=
  View.canon [⟨rFirst, k0_pay2 (F := F)⟩, ⟨rAll, k0_pay1 (View.ld x0 rAll)⟩]

/-- The second output block after the body: the zero column over the block rotated left by one. -/
def out0_2 (x0 : Vec F S128x8192 .f32) : Vec F S128x8192 .f32 :=
  View.canon [⟨rLast, k0_pay4 (F := F)⟩, ⟨rAll, k0_pay3 (View.ld x0 rAll)⟩]

/-- The whole-block store alone already covers the block, so the two stores do. -/
theorem cover0 (pc : View.Piece (Elt F) S128x8192 .f32) (p0 : Vec F S128x8192 .f32) (y : S128x8192.Idx) :
    ∃ q ∈ ([pc, ⟨rAll, p0⟩] : List (View.Piece (Elt F) S128x8192 .f32)), y ∈ q.1.set :=
  ⟨⟨rAll, p0⟩, by simp, View.mem_set_unit_zero (by funext a; match a with | ⟨0, _⟩ => rfl | ⟨1, _⟩ => rfl) inb_S128x8192_S128x8192_0_0 y⟩

end Cert.Kernel.Hand

end
-- ==== Proof.KernelFrame.lean ====
/-
  The frame of the program: every weakly fair execution of @main terminates, nothing faults, and the argument
  array ends as it was launched — together with what every other array holds at the end.

  @main is one pipelined region followed by four host operations (three broadcasts and a concatenation). The region
  runs the kernel body at 32 grid points; at point `t` the body is handed the input array's block of rows
  `128 t … 128 t + 127` in one staging buffer and two output staging buffers holding anything. The body reads the
  input block, reads the output buffers (values it never uses), and stores into each output buffer a rotation of the
  input block and then one column of zeros: so after the body the input buffer is unchanged and each output buffer
  holds a function of the input block alone (`out0_1`, `out0_2`), whatever it held before. That is the proof data of
  the pipeline; the pipeline's launch theorem then gives the run, with each output array named block by block and
  each remaining array at what the four host operations compute from the arrays the region leaves.
-/
import proofs.«111638_j82626580840944_2_alg».proof.Proof.Gen.Kernel.Launch
import proofs.«111638_j82626580840944_2_alg».proof.Proof.Gen.Kernel.Skeleton
import proofs.«111638_j82626580840944_2_alg».proof.Proof.Gen.Kernel.Points
import proofs.«111638_j82626580840944_2_alg».proof.Proof.KernelBlocks
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host operation precedes the region, so they are the
    launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The four host operations allocate nothing. -/
theorem hostOps1_fresh : (hostOps1 : List (HloOp τ sig (Elt F))).Forall fun op => op.fresh = ∅ := by
  simp only [List.Forall]; repeat' constructor

/-- @main is the region continued by the four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-- The host operations touch only unscoped TensorCore buffers: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And none writes an array of the pipeline: each writes its own result buffer, and the results are the three
    broadcasts and the concatenation, none of them the argument or an output of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-- The region finds the argument array as launched. -/
theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument array is the input window's array: the run leaves it at its region-entry contents, which are the
    launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's triple -/

set_option maxHeartbeats 1000000 in
/-- The kernel body on whole staging memrefs — the input's at contents `x0`, the outputs' at anything — runs to the
    continuation holding the input's as it was and the outputs' at `out0_1 x0` and `out0_2 x0`. -/
theorem sound_kernel (c : Dev nD) (E : Set ℕ) (i : grid0.Coords) (arg1 : Memref sig .tc .vmem S128x8192 .f32) (harg1 : arg1.IsWhole)
    (arg2 : Memref sig .tc .vmem S128x8192 .f32) (harg2 : arg2.IsWhole) (arg3 : Memref sig .tc .vmem S128x8192 .f32) (harg3 : arg3.IsWhole)
    (x0 : Vec F S128x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__ngram_kernel i arg1 harg1 arg2 harg2 arg3 harg3) K := by
  simp only [cc0__ngram_kernel_eq_skeleton]; unfold cc0__ngram_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _ _)
  iexists _; isplitr
  swap; · iexact H2
  ipureintro
  exact View.read_writes_eq_canon _ _ _ (cover0 _ _)

/-! ## The pipeline's proof data -/

/-- The proof data of the pipeline on core `c`: the arrays as the region finds them; after the body at point `t` the
    input's buffer at its block and each output's at `out0_1` / `out0_2` of the input block; the invariant the
    untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds its block, the outputs' hold something, so the body's triple
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the write-backs of the proof data's blocks leave and every other unscoped buffer at
    what the four host operations compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KernelIdealBlocks.lean ====
/-
  What the kernel body leaves in its two output blocks, as a function of the input block.

  The body loads the whole input block `x` (128 rows, all 8192 columns). Into the first output block it stores `x`
  rotated by one column to the right and then, over that, a column of zeros in column 0; into the second it stores `x`
  rotated by 8191 columns (one column to the left) and then a column of zeros in column 8191. A block's contents
  after these stores are the stores' payloads laid over one another, the LAST store on top: `View.canon` of the
  pieces, last first.
-/
import proofs.«111638_j82626580840944_2_alg».proof.Proof.Gen.KernelIdeal.Skeleton
import Idealize.ShloMosaic.Lib.Pipeline.FrameBody
import Idealize.ShloMosaic.Lib.Pipeline.Value

noncomputable section

namespace Cert.KernelIdeal.Hand

open Idealize.ShloMosaic Idealize.SL.Sem
open Cert.KernelIdeal Cert.KernelIdeal.Gen

variable {F : FTy → Type} [FloatOps F]

/-- The whole block. -/
abbrev rAll : Rect S128x8192 := Rect.unit (s := S128x8192) ![0, 0] S128x8192.size inb_S128x8192_S128x8192_0_0
/-- Its first column. -/
abbrev rFirst : Rect S128x8192 := Rect.unit (s := S128x8192) ![0, 0] S128x1.size inb_S128x8192_S128x1_0_0
/-- Its last column. -/
abbrev rLast : Rect S128x8192 := Rect.unit (s := S128x8192) ![0, 8191] S128x1.size inb_S128x8192_S128x1_0_8191

/-- The first output block after the body: the zero column over the block rotated right by one. -/
def out0_1 (x0 : Vec F S128x8192 .f32) : Vec F S128x8192 .f32 :=
  View.canon [⟨rFirst, k0_pay2 (F := F)⟩, ⟨rAll, k0_pay1 (View.ld x0 rAll)⟩]

/-- The second output block after the body: the zero column over the block rotated left by one. -/
def out0_2 (x0 : Vec F S128x8192 .f32) : Vec F S128x8192 .f32 :=
  View.canon [⟨rLast, k0_pay4 (F := F)⟩, ⟨rAll, k0_pay3 (View.ld x0 rAll)⟩]

/-- The whole-block store alone already covers the block, so the two stores do. -/
theorem cover0 (pc : View.Piece (Elt F) S128x8192 .f32) (p0 : Vec F S128x8192 .f32) (y : S128x8192.Idx) :
    ∃ q ∈ ([pc, ⟨rAll, p0⟩] : List (View.Piece (Elt F) S128x8192 .f32)), y ∈ q.1.set :=
  ⟨⟨rAll, p0⟩, by simp, View.mem_set_unit_zero (by funext a; match a with | ⟨0, _⟩ => rfl | ⟨1, _⟩ => rfl) inb_S128x8192_S128x8192_0_0 y⟩

end Cert.KernelIdeal.Hand

end
-- ==== Proof.KernelIdealFrame.lean ====
/-
  The frame of the program: every weakly fair execution of @main terminates, nothing faults, and the argument
  array ends as it was launched — together with what every other array holds at the end.

  @main is one pipelined region followed by four host operations (three broadcasts and a concatenation). The region
  runs the kernel body at 32 grid points; at point `t` the body is handed the input array's block of rows
  `128 t … 128 t + 127` in one staging buffer and two output staging buffers holding anything. The body reads the
  input block, reads the output buffers (values it never uses), and stores into each output buffer a rotation of the
  input block and then one column of zeros: so after the body the input buffer is unchanged and each output buffer
  holds a function of the input block alone (`out0_1`, `out0_2`), whatever it held before. That is the proof data of
  the pipeline; the pipeline's launch theorem then gives the run, with each output array named block by block and
  each remaining array at what the four host operations compute from the arrays the region leaves.
-/
import proofs.«111638_j82626580840944_2_alg».proof.Proof.Gen.KernelIdeal.Launch
import proofs.«111638_j82626580840944_2_alg».proof.Proof.Gen.KernelIdeal.Skeleton
import proofs.«111638_j82626580840944_2_alg».proof.Proof.Gen.KernelIdeal.Points
import proofs.«111638_j82626580840944_2_alg».proof.Proof.KernelIdealBlocks
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host operation precedes the region, so they are the
    launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The four host operations allocate nothing. -/
theorem hostOps1_fresh : (hostOps1 : List (HloOp τ sig (Elt F))).Forall fun op => op.fresh = ∅ := by
  simp only [List.Forall]; repeat' constructor

/-- @main is the region continued by the four host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

/-- The host operations touch only unscoped TensorCore buffers: the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And none writes an array of the pipeline: each writes its own result buffer, and the results are the three
    broadcasts and the concatenation, none of them the argument or an output of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-- The region finds the argument array as launched. -/
theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument array is the input window's array: the run leaves it at its region-entry contents, which are the
    launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's triple -/

set_option maxHeartbeats 1000000 in
/-- The kernel body on whole staging memrefs — the input's at contents `x0`, the outputs' at anything — runs to the
    continuation holding the input's as it was and the outputs' at `out0_1 x0` and `out0_2 x0`. -/
theorem sound_kernel (c : Dev nD) (E : Set ℕ) (i : grid0.Coords) (arg1 : Memref sig .tc .vmem S128x8192 .f32) (harg1 : arg1.IsWhole)
    (arg2 : Memref sig .tc .vmem S128x8192 .f32) (harg2 : arg2.IsWhole) (arg3 : Memref sig .tc .vmem S128x8192 .f32) (harg3 : arg3.IsWhole)
    (x0 : Vec F S128x8192 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__ngram_kernel i arg1 harg1 arg2 harg2 arg3 harg3) K := by
  simp only [cc0__ngram_kernel_eq_skeleton]; unfold cc0__ngram_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _ _)
  iexists _; isplitr
  swap; · iexact H2
  ipureintro
  exact View.read_writes_eq_canon _ _ _ (cover0 _ _)

/-! ## The pipeline's proof data -/

/-- The proof data of the pipeline on core `c`: the arrays as the region finds them; after the body at point `t` the
    input's buffer at its block and each output's at `out0_1` / `out0_2` of the input block; the invariant the
    untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds its block, the outputs' hold something, so the body's triple
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has each
    array of the pipeline at what the write-backs of the proof data's blocks leave and every other unscoped buffer at
    what the four host operations compute from them. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.KernelIdealBlockValues.lean ====
/-
  The kernel body's two output blocks read at one index, at the ideal values.

  The first block holds the input block rotated one column to the right with a column of zeros laid over column 0:
  at (r, i) it is 0 when i = 0 and the input at (r, i - 1) otherwise. The second holds the input rotated one column
  to the left with zeros over column 8191: at (r, i) it is 0 when i = 8191 and the input at (r, i + 1) otherwise.
  Columns are named modulo 8192, as the rotation names them.

  Each block is two stores laid over one another. In the zero column the later store (the zeros) is read; off it that
  store's rectangle does not hold the index, so the earlier store is read, and that one covers the whole block, so what
  is read is its payload: the rotation of the input block, which at an index is the input at the index moved back.
-/
import proofs.«111638_j82626580840944_2_alg».proof.Proof.KernelIdealBlocks
import Idealize.ShloMosaic.Lib.KernelVsHost
import Idealize.ShloMosaic.PureOps.Ideal.Laws

noncomputable section
namespace Cert.KernelIdeal.Hand
open Idealize.ShloMosaic Idealize.SL.Sem Idealize.ShloMosaic.ValueIdx
open Cert.KernelIdeal Cert.KernelIdeal.Gen

/-- A store into a block at the ideal values: a rectangle and its payload. -/
private abbrev Pc := View.Piece (Elt Ideal) S128x8192 .f32

/-- The zero offsets of the whole-block rectangle, axis by axis. -/
private theorem off_zero : (![0, 0] : Fin S128x8192.rank → Nat) = fun _ => 0 := by
  funext a; match a with | ⟨0, _⟩ => rfl | ⟨1, _⟩ => rfl

/-- An index lies in the first column's rectangle exactly when its column is 0. -/
private theorem mem_rFirst (y : S128x8192.Idx) : y ∈ rFirst.set ↔ (y 1).val = 0 := by
  refine Rect.mem_set_unit.trans ⟨fun h => ?_, fun h a => ?_⟩
  · have h1 := (h 1).2
    have e : (![0, 0] : Fin 2 → Nat) 1 + S128x1.size 1 = 1 := rfl
    rw [e] at h1
    omega
  · match a with
    | ⟨0, _⟩ =>
      refine ⟨Nat.zero_le _, ?_⟩
      show (y 0).val < 0 + 128
      have := (y 0).isLt
      have e : S128x8192.size 0 = 128 := rfl
      omega
    | ⟨1, _⟩ =>
      refine ⟨Nat.zero_le _, ?_⟩
      show (y 1).val < 0 + 1
      omega

/-- An index lies in the last column's rectangle exactly when its column is 8191. -/
private theorem mem_rLast (y : S128x8192.Idx) : y ∈ rLast.set ↔ (y 1).val = 8191 := by
  refine Rect.mem_set_unit.trans ⟨fun h => ?_, fun h a => ?_⟩
  · have h1 := h 1
    have e : (![0, 8191] : Fin 2 → Nat) 1 + S128x1.size 1 = 8192 := rfl
    have e' : (![0, 8191] : Fin 2 → Nat) 1 = 8191 := rfl
    rw [e, e'] at h1
    omega
  · match a with
    | ⟨0, _⟩ =>
      refine ⟨Nat.zero_le _, ?_⟩
      show (y 0).val < 0 + 128
      have := (y 0).isLt
      have e : S128x8192.size 0 = 128 := rfl
      omega
    | ⟨1, _⟩ =>
      refine ⟨?_, ?_⟩
      · show 8191 ≤ (y 1).val
        omega
      · show (y 1).val < 8191 + 1
        omega

/-- The column of zeros stored over the first block is the extended real 0 at each of its indices. -/
private theorem pay2_apply (x' : S128x1.Idx) : k0_pay2 (F := Ideal) x' = (0 : EReal) := by
  unfold k0_pay2
  exact Ideal.ofBits_zero_f32

/-- So is the one stored over the second block. -/
private theorem pay4_apply (x' : S128x1.Idx) : k0_pay4 (F := Ideal) x' = (0 : EReal) := by
  unfold k0_pay4
  exact Ideal.ofBits_zero_f32

/-- The rotation by 1 read at an index: the block one column to the left, around the end. -/
private theorem pay1_apply (x0 : Vec Ideal S128x8192 .f32) (y k : S128x8192.Idx)
    (h0 : (k 0).val = (y 0).val) (h1 : (k 1).val = ((y 1).val + 8191) % 8192) :
    k0_pay1 x0 y = x0 k := by
  unfold k0_pay1
  refine dynamicRotate_apply 1 1#32 x0 rotates_S128x8192_d1 y k fun b => ?_
  match b with
  | ⟨0, _⟩ => exact h0
  | ⟨1, _⟩ =>
    refine h1.trans ?_
    show ((y 1).val + 8191) % 8192 = ((y 1).val + 8192 - 1 % 8192) % 8192
    omega

/-- The rotation by 8191 read at an index: the block one column to the right, around the end. -/
private theorem pay3_apply (x0 : Vec Ideal S128x8192 .f32) (y k : S128x8192.Idx)
    (h0 : (k 0).val = (y 0).val) (h1 : (k 1).val = ((y 1).val + 1) % 8192) :
    k0_pay3 x0 y = x0 k := by
  unfold k0_pay3
  refine dynamicRotate_apply 1 8191#32 x0 rotates_S128x8192_d1 y k fun b => ?_
  match b with
  | ⟨0, _⟩ => exact h0
  | ⟨1, _⟩ =>
    refine h1.trans ?_
    show ((y 1).val + 1) % 8192 = ((y 1).val + 8192 - 8191 % 8192) % 8192
    omega

/-- One store through the whole-block rectangle of a payload computed from the block loaded through that same
    rectangle leaves the payload computed from the block itself. -/
private theorem canon_all (f : Vec Ideal S128x8192 .f32 → Vec Ideal S128x8192 .f32) (x0 : Vec Ideal S128x8192 .f32) :
    View.canon [(⟨rAll, f (View.ld x0 rAll)⟩ : Pc)] = f x0 := by
  rw [View.canon_unit_zero off_zero inb_S128x8192_S128x8192_0_0,
    View.ld_unit_zero off_zero inb_S128x8192_S128x8192_0_0]

/-- The first output block at (r, i): zero in column 0, elsewhere the input block one column to the left; `k` is any index with that neighbour's coordinates (the column modulo 8192, as the rotation names it). -/
theorem out0_1_apply (x0 : Vec Ideal S128x8192 .f32) (y k : S128x8192.Idx)
    (h0 : (k 0).val = (y 0).val) (h1 : (k 1).val = ((y 1).val + 8191) % 8192) :
    out0_1 (F := Ideal) x0 y = if (y 1).val = 0 then (0 : EReal) else x0 k := by
  by_cases hy : (y 1).val = 0
  · rw [if_pos hy]
    obtain ⟨x', hx⟩ := rFirst.exists_idx_of_mem ((mem_rFirst y).mpr hy)
    rw [← hx]
    exact (View.canon_cons_emb (Val := Elt Ideal) rFirst (k0_pay2 (F := Ideal))
      [(⟨rAll, k0_pay1 (View.ld x0 rAll)⟩ : Pc)] x').trans (pay2_apply x')
  · rw [if_neg hy]
    exact (View.canon_cons_of_not_mem (Val := Elt Ideal) (⟨rFirst, k0_pay2 (F := Ideal)⟩ : Pc)
      [(⟨rAll, k0_pay1 (View.ld x0 rAll)⟩ : Pc)] (fun hm => hy ((mem_rFirst y).mp hm))).trans
      ((congrFun (canon_all k0_pay1 x0) y).trans (pay1_apply x0 y k h0 h1))

/-- The second output block at (r, i): zero in column 8191, elsewhere the input block one column to the right. -/
theorem out0_2_apply (x0 : Vec Ideal S128x8192 .f32) (y k : S128x8192.Idx)
    (h0 : (k 0).val = (y 0).val) (h1 : (k 1).val = ((y 1).val + 1) % 8192) :
    out0_2 (F := Ideal) x0 y = if (y 1).val = 8191 then (0 : EReal) else x0 k := by
  by_cases hy : (y 1).val = 8191
  · rw [if_pos hy]
    obtain ⟨x', hx⟩ := rLast.exists_idx_of_mem ((mem_rLast y).mpr hy)
    rw [← hx]
    exact (View.canon_cons_emb (Val := Elt Ideal) rLast (k0_pay4 (F := Ideal))
      [(⟨rAll, k0_pay3 (View.ld x0 rAll)⟩ : Pc)] x').trans (pay4_apply x')
  · rw [if_neg hy]
    exact (View.canon_cons_of_not_mem (Val := Elt Ideal) (⟨rLast, k0_pay4 (F := Ideal)⟩ : Pc)
      [(⟨rAll, k0_pay3 (View.ld x0 rAll)⟩ : Pc)] (fun hm => hy ((mem_rLast y).mp hm))).trans
      ((congrFun (canon_all k0_pay3 x0) y).trans (pay3_apply x0 y k h0 h1))

end Cert.KernelIdeal.Hand
end
-- ==== Proof.Shifted.lean ====
/-
  The specification: the two shifted planes of a matrix with 4096 rows and 8192 columns.

  `fromLeft z x` holds, at row `b` and column `i`, the entry of `x` one column to the left, `x (b, i - 1)`, and the
  boundary value `z` in column 0, where there is no left neighbour; `fromRight z x` holds `x (b, i + 1)`, and `z` in
  the last column 8191. The neighbour's column is written modulo 8192 — `(i + 8191) % 8192` is `i - 1` from column 1
  on, `(i + 1) % 8192` is `i + 1` before the last column — because that is how a rotation of the columns names it; in
  the one column where the two differ the plane holds `z` and the neighbour is not read.
-/
import Idealize.ShloMosaic.Lib.ValueIdx

namespace Cert.Shifted

open Idealize.ShloMosaic Idealize.ShloMosaic.ValueIdx

/-- The matrix's shape. -/
abbrev SX : Shape := ⟨2, ![4096, 8192]⟩

/-- The index one column to the left, around the end. -/
def leftOf (j : SX.Idx) : SX.Idx :=
  ix2 (n0 := 4096) (n1 := 8192) ⟨(j 0).val, idx2_lt0 j⟩ ⟨((j 1).val + 8191) % 8192, Nat.mod_lt _ (by decide)⟩

/-- The index one column to the right, around the end. -/
def rightOf (j : SX.Idx) : SX.Idx :=
  ix2 (n0 := 4096) (n1 := 8192) ⟨(j 0).val, idx2_lt0 j⟩ ⟨((j 1).val + 1) % 8192, Nat.mod_lt _ (by decide)⟩

theorem leftOf_row (j : SX.Idx) : (leftOf j 0).val = (j 0).val := rfl
theorem leftOf_col (j : SX.Idx) : (leftOf j 1).val = ((j 1).val + 8191) % 8192 := rfl
theorem rightOf_row (j : SX.Idx) : (rightOf j 0).val = (j 0).val := rfl
theorem rightOf_col (j : SX.Idx) : (rightOf j 1).val = ((j 1).val + 1) % 8192 := rfl

/-- The plane of left neighbours: `z` in column 0. -/
def fromLeft {α : Type} (z : α) (x : SX.Idx → α) : SX.Idx → α :=
  fun j => if (j 1).val = 0 then z else x (leftOf j)

/-- The plane of right neighbours: `z` in column 8191. -/
def fromRight {α : Type} (z : α) (x : SX.Idx → α) : SX.Idx → α :=
  fun j => if (j 1).val = 8191 then z else x (rightOf j)

/-- Any index with the left neighbour's coordinates is the left neighbour. -/
theorem eq_leftOf (j k : SX.Idx) (h0 : (k 0).val = (j 0).val) (h1 : (k 1).val = ((j 1).val + 8191) % 8192) :
    k = leftOf j := by
  funext a; match a with
  | ⟨0, _⟩ => exact Fin.ext h0
  | ⟨1, _⟩ => exact Fin.ext h1

/-- Any index with the right neighbour's coordinates is the right neighbour. -/
theorem eq_rightOf (j k : SX.Idx) (h0 : (k 0).val = (j 0).val) (h1 : (k 1).val = ((j 1).val + 1) % 8192) :
    k = rightOf j := by
  funext a; match a with
  | ⟨0, _⟩ => exact Fin.ext h0
  | ⟨1, _⟩ => exact Fin.ext h1

end Cert.Shifted
-- ==== Proof.LibHostNary3.lean ====
/-
  A host operation with three operands given as a literal family of references (a concatenation of three arrays):
  its result, with each operand's contents read at its own reference.

  The general statement reads the operands as `fun k => F (ref (xs k))`, under a binder, where the reference
  `xs k` is no literal; for a literal family `![x, a, b]` the three contents can be named one by one, which lets the
  per-operation result lemmas go on rewriting inside them.
-/
import Idealize.ShloMosaic.Lib.StableHlo.Run

noncomputable section

namespace Idealize.ShloMosaic.StableHlo

variable {τ : Topo} {sig : RefSig} {Val : EltTy → Type}
variable {x a b y : Ref sig .tc}

/-- The result of an operation of three operands `![x, a, b]` at its own result buffer is its function of the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KernelIdealValue.lean ====
/-
  What the idealized kernel's program computes: its result array as one term of the argument array.

  The region's first output array ends holding, block of rows by block of rows, what the body left in the staging
  buffer at each grid point. Point `t` handles rows `128 t … 128 t + 127` and all 8192 columns, so a block's row `r`
  and column `i` is the array's row `128 t + r` and column `i`, and the body's result there — zero in the boundary
  column, the input block's neighbouring column elsewhere — is the plane of left (resp. right) neighbours of the
  argument read at that index. The 32 blocks tile the array, so the first output array IS the plane of left
  neighbours and the second the plane of right neighbours. The four host operations after the region then broadcast
  the two planes and the argument to a trailing axis of length one and join them along it.
-/
import proofs.«111638_j82626580840944_2_alg».proof.Proof.KernelIdealFrame
import proofs.«111638_j82626580840944_2_alg».proof.Proof.KernelIdealBlockValues
import proofs.«111638_j82626580840944_2_alg».proof.Proof.Shifted
import Idealize.ShloMosaic.Lib.Pipeline.Value
import Idealize.ShloMosaic.Lib.StableHlo.Run
import proofs.«111638_j82626580840944_2_alg».proof.Proof.LibHostNary3

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The argument array as the region finds it, as a function of the matrix index. -/
abbrev X (c : Dev nD) : Cert.Shifted.SX.Idx → EReal := m ((c : Thread nD τ).loc main_arg0)

/-- At grid point `t` every window's block is block `t` along the rows and block 0 along the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point `t`, at row `r` and column `i`, is the argument at row `128 t + r` and column `i`. -/
theorem iblk_apply (c : Dev nD) (t : Fin cfg0.N) (y : S128x8192.Idx) (k : Cert.Shifted.SX.Idx)
    (hk0 : (k 0).val = 128 * t.val + (y 0).val) (hk1 : (k 1).val = (y 1).val) :
    (iblk m c 0 t : Vec Ideal S128x8192 .f32) y = X m c k := by
  obtain ⟨e0, e1, -, -, -, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 128 + 1 * (y 0).val = (k 0).val; rw [e0, hk0]; omega
  | ⟨1, _⟩ => show win0_0.index t (1 : Fin 2) * 8192 + 1 * (y 1).val = (k 1).val; rw [e1, hk1]; omega

/-! ## A block's coordinates in the array -/

/-- Row `r` of point `t`'s block of the first output array is the array's row `128 t + r`, -/
theorem emb1_row (t : Fin cfg0.N) (y : S128x8192.Idx) : ((((cfg0.win 1).blk t).view.emb y) 0).val = 128 * t.val + (y 0).val := by
  obtain ⟨-, -, e0, -, -, -⟩ := idx_facts t
  show win0_1.index t (0 : Fin 2) * 128 + 1 * (y 0).val = _
  rw [e0]; omega
/-- and its column `i` the array's column `i`. -/
theorem emb1_col (t : Fin cfg0.N) (y : S128x8192.Idx) : ((((cfg0.win 1).blk t).view.emb y) 1).val = (y 1).val := by
  obtain ⟨-, -, -, e1, -, -⟩ := idx_facts t
  show win0_1.index t (1 : Fin 2) * 8192 + 1 * (y 1).val = _
  rw [e1]; omega
/-- The same for the second output array. -/
theorem emb2_row (t : Fin cfg0.N) (y : S128x8192.Idx) : ((((cfg0.win 2).blk t).view.emb y) 0).val = 128 * t.val + (y 0).val := by
  obtain ⟨-, -, -, -, e0, -⟩ := idx_facts t
  show win0_2.index t (0 : Fin 2) * 128 + 1 * (y 0).val = _
  rw [e0]; omega
theorem emb2_col (t : Fin cfg0.N) (y : S128x8192.Idx) : ((((cfg0.win 2).blk t).view.emb y) 1).val = (y 1).val := by
  obtain ⟨-, -, -, -, -, e1⟩ := idx_facts t
  show win0_2.index t (1 : Fin 2) * 8192 + 1 * (y 1).val = _
  rw [e1]; omega

/-! ## What each point writes back -/

/-- Point `t` writes back, to the first output array, block `t` of the plane of left neighbours of the argument. -/
theorem flushed1_eq (c : Dev nD) (t : Fin cfg0.N) :
    (dats m 0 c).flushed 1 t = ((cfg0.win 1).blk t).view.read (Elt Ideal) (Cert.Shifted.fromLeft (0 : EReal) (X m c)) := by
  show (cfg0.win 1).cut (grid0.coords t) ((dats m 0 c).after 1 t) = _
  rw [after0_1]
  funext y
  show out0_1 (iblk m c 0 t) y = Cert.Shifted.fromLeft (0 : EReal) (X m c) (((cfg0.win 1).blk t).view.emb y)
  have hy0 : (y 0).val < 128 := idx2_lt0 y
  have hc := emb1_col t y
  have hr := emb1_row t y
  refine (out0_1_apply (iblk m c 0 t) y (ix2 (n0 := 128) (n1 := 8192) ⟨(y 0).val, hy0⟩ ⟨((y 1).val + 8191) % 8192, Nat.mod_lt _ (by decide)⟩) rfl rfl).trans ?_
  unfold Cert.Shifted.fromLeft
  by_cases h : (y 1).val = 0
  · rw [if_pos h, if_pos (hc.trans h)]
  · rw [if_neg h, if_neg (fun h' => h (hc.symm.trans h'))]
    exact iblk_apply m c t _ _ (by rw [Cert.Shifted.leftOf_row, hr]) (by rw [Cert.Shifted.leftOf_col, hc])

/-- Point `t` writes back, to the second output array, block `t` of the plane of right neighbours of the argument. -/
theorem flushed2_eq (c : Dev nD) (t : Fin cfg0.N) :
    (dats m 0 c).flushed 2 t = ((cfg0.win 2).blk t).view.read (Elt Ideal) (Cert.Shifted.fromRight (0 : EReal) (X m c)) := by
  show (cfg0.win 2).cut (grid0.coords t) ((dats m 0 c).after 2 t) = _
  rw [after0_2]
  funext y
  show out0_2 (iblk m c 0 t) y = Cert.Shifted.fromRight (0 : EReal) (X m c) (((cfg0.win 2).blk t).view.emb y)
  have hy0 : (y 0).val < 128 := idx2_lt0 y
  have hc := emb2_col t y
  have hr := emb2_row t y
  refine (out0_2_apply (iblk m c 0 t) y (ix2 (n0 := 128) (n1 := 8192) ⟨(y 0).val, hy0⟩ ⟨((y 1).val + 1) % 8192, Nat.mod_lt _ (by decide)⟩) rfl rfl).trans ?_
  unfold Cert.Shifted.fromRight
  by_cases h : (y 1).val = 8191
  · rw [if_pos h, if_pos (hc.trans h)]
  · rw [if_neg h, if_neg (fun h' => h (hc.symm.trans h'))]
    exact iblk_apply m c t _ _ (by rw [Cert.Shifted.rightOf_row, hr]) (by rw [Cert.Shifted.rightOf_col, hc])

/-! ## The blocks tile the arrays -/

/-- An index of the first output array is in point `t`'s block iff each coordinate is in the block's range. -/
theorem mem_blk1 (t : Fin cfg0.N) (i : S4096x8192.Idx) :
    i ∈ ((cfg0.win 1).blk t).view.set ↔ ∀ a : Fin 2, win0_1.index t a * S128x8192.size a ≤ (i a).val ∧ (i a).val < win0_1.index t a * S128x8192.size a + S128x8192.size a := by
  show i ∈ ((View.whole main_v0_0).slice (win0_1.rect t)).set ↔ _
  rw [View.set_slice_whole, Rect.mem_set_unit]
  exact Iff.rfl
theorem mem_blk2 (t : Fin cfg0.N) (i : S4096x8192.Idx) :
    i ∈ ((cfg0.win 2).blk t).view.set ↔ ∀ a : Fin 2, win0_2.index t a * S128x8192.size a ≤ (i a).val ∧ (i a).val < win0_2.index t a * S128x8192.size a + S128x8192.size a := by
  show i ∈ ((View.whole main_v0_1).slice (win0_2.rect t)).set ↔ _
  rw [View.set_slice_whole, Rect.mem_set_unit]
  exact Iff.rfl

/-- The point that covers row `r` is `r / 128`. -/
def pointOf (i : S4096x8192.Idx) : Fin cfg0.N :=
  ⟨(i 0).val / 128, by have h : (i 0).val < 4096 := idx2_lt0 i; rw [show cfg0.N = 32 from N_0]; omega⟩

theorem cover1 (i : S4096x8192.Idx) : ∃ t : Fin cfg0.N, (cfg0.win 1).flush t = true ∧ i ∈ ((cfg0.win 1).blk t).view.set := by
  have hi0 : (i 0).val < 4096 := idx2_lt0 i
  have hi1 : (i 1).val < 8192 := idx2_lt1 i
  refine ⟨pointOf i, flush0_1 _, ?_⟩
  rw [mem_blk1]
  obtain ⟨-, -, e0, e1, -, -⟩ := idx_facts (pointOf i)
  have hp : (pointOf i).val = (i 0).val / 128 := rfl
  intro a
  match a with
  | ⟨0, _⟩ => show win0_1.index (pointOf i) (0 : Fin 2) * 128 ≤ (i 0).val ∧ (i 0).val < win0_1.index (pointOf i) (0 : Fin 2) * 128 + 128; rw [e0, hp]; omega
  | ⟨1, _⟩ => show win0_1.index (pointOf i) (1 : Fin 2) * 8192 ≤ (i 1).val ∧ (i 1).val < win0_1.index (pointOf i) (1 : Fin 2) * 8192 + 8192; rw [e1]; omega

theorem cover2 (i : S4096x8192.Idx) : ∃ t : Fin cfg0.N, (cfg0.win 2).flush t = true ∧ i ∈ ((cfg0.win 2).blk t).view.set := by
  have hi0 : (i 0).val < 4096 := idx2_lt0 i
  have hi1 : (i 1).val < 8192 := idx2_lt1 i
  refine ⟨pointOf i, flush0_2 _, ?_⟩
  rw [mem_blk2]
  obtain ⟨-, -, -, -, e0, e1⟩ := idx_facts (pointOf i)
  have hp : (pointOf i).val = (i 0).val / 128 := rfl
  intro a
  match a with
  | ⟨0, _⟩ => show win0_2.index (pointOf i) (0 : Fin 2) * 128 ≤ (i 0).val ∧ (i 0).val < win0_2.index (pointOf i) (0 : Fin 2) * 128 + 128; rw [e0, hp]; omega
  | ⟨1, _⟩ => show win0_2.index (pointOf i) (1 : Fin 2) * 8192 ≤ (i 1).val ∧ (i 1).val < win0_2.index (pointOf i) (1 : Fin 2) * 8192 + 8192; rw [e1]; omega

/-! ## The two output arrays after the region -/

/-- The first output array ends as the plane of left neighbours of the argument, -/
theorem final1 (c : Dev nD) : (dats m 0 c).arrAt 1 cfg0.N = Cert.Shifted.fromLeft (0 : EReal) (X m c) :=
  (dats m 0 c).arrAt_eq_of_cover 1 _ (fun t _ => flushed1_eq m c t) cover1
/-- and the second as the plane of right neighbours. -/
theorem final2 (c : Dev nD) : (dats m 0 c).arrAt 2 cfg0.N = Cert.Shifted.fromRight (0 : EReal) (X m c) :=
  (dats m 0 c).arrAt_eq_of_cover 2 _ (fun t _ => flushed2_eq m c t) cover2

/-! ## The host operations after the region -/

/-- The joined result: a plane, the matrix and another plane, each given a trailing axis of length one, joined along it. -/
abbrev stacked (a x b : (⟨S4096x8192, .f32⟩ : BufTy).Contents (Elt Ideal)) : (⟨S4096x8192x3, .f32⟩ : BufTy).Contents (Elt Ideal) :=
  concatenate S4096x8192x3 2 [⟨S4096x8192x1, (broadcastInDim S4096x8192x1 ![0, 1] bcast_S4096x8192_S4096x8192x1_0_1 a : (⟨S4096x8192x1, .f32⟩ : BufTy).Contents (Elt Ideal))⟩,
    ⟨S4096x8192x1, (broadcastInDim S4096x8192x1 ![0, 1] bcast_S4096x8192_S4096x8192x1_0_1 x : (⟨S4096x8192x1, .f32⟩ : BufTy).Contents (Elt Ideal))⟩,
    ⟨S4096x8192x1, (broadcastInDim S4096x8192x1 ![0, 1] bcast_S4096x8192_S4096x8192x1_0_1 b : (⟨S4096x8192x1, .f32⟩ : BufTy).Contents (Elt Ideal))⟩]
    concatenates_S4096x8192x1_S4096x8192x1_S4096x8192x1_S4096x8192x3_d2

/-- What the four host operations leave in the result array: the joined broadcasts of the region's first output
    array, the argument array and the region's second output array, each as the region leaves it. -/
theorem tail_v4 (c : Dev nD) :
    Pipeline.afterTail₀ cfgs (dats m) 0 (V0 m) [hostOps1] c main_v4
      = stacked ((dats m 0 c).arrAt 1 cfg0.N) ((dats m 0 c).arrAt 0 cfg0.N) ((dats m 0 c).arrAt 2 cfg0.N) := by
  have e0 : Pipeline.withArrays (cfgs 0).spec c (V0 m c) (fun w => (dats m 0 c).arrAt w (cfgs 0).N) (Proc.devRef .tc main_arg0)
      = (dats m 0 c).arrAt 0 cfg0.N := Pipeline.withArrays_arr spec0 launch0.win.arr_inj c (V0 m c) _ 0
  have e1 : Pipeline.withArrays (cfgs 0).spec c (V0 m c) (fun w => (dats m 0 c).arrAt w (cfgs 0).N) (Proc.devRef .tc main_v0_0)
      = (dats m 0 c).arrAt 1 cfg0.N := Pipeline.withArrays_arr spec0 launch0.win.arr_inj c (V0 m c) _ 1
  have e2 : Pipeline.withArrays (cfgs 0).spec c (V0 m c) (fun w => (dats m 0 c).arrAt w (cfgs 0).N) (Proc.devRef .tc main_v0_1)
      = (dats m 0 c).arrAt 2 cfg0.N := Pipeline.withArrays_arr spec0 launch0.win.arr_inj c (V0 m c) _ 2
  unfold Pipeline.afterTail₀
  show StableHlo.after hostOps1 _ (Proc.devRef .tc main_v4) = _
  simp only [StableHlo.after_cons, StableHlo.after_nil]
  rw [StableHlo.nary3_result]
  repeat (first
    | rw [StableHlo.unary_result]
    | (rw [StableHlo.unary_result_ne]; rotate_left; decide))
  rw [e0, e1, e2]
  rfl

/-! ## The run, read -/

/-- After the frame run the argument array is as launched: the input window stages it and never writes it back. -/
theorem kept_arg0 (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The result array after the run: the plane of left neighbours, the argument and the plane of right neighbours, joined. -/
theorem result_eq (c : Dev nD) :
    Pipeline.afterTail₀ cfgs (dats m) 0 (V0 m) [hostOps1] c main_v4
      = stacked (Cert.Shifted.fromLeft (0 : EReal) (X m c)) (X m c) (Cert.Shifted.fromRight (0 : EReal) (X m c)) := by
  rw [tail_v4, final1, final2, (dats m 0 c).arrAt_in 0 rfl, A_eq]
  rfl

/-- Every weakly fair execution of the idealized kernel's @main terminates with the result array at the joined planes of
    the argument and the argument unchanged. -/
theorem run : θ_run defs (onTc (τ := τ) (main (F := Ideal))) ⟨m, fun _ => 0, ρ⟩ fun r => ∀ c : Dev nD,
      r.2.mem ((c : Thread nD τ).loc main_v4)
        = stacked (Cert.Shifted.fromLeft (0 : EReal) (X m c)) (X m c) (Cert.Shifted.fromRight (0 : EReal) (X m c))
      ∧ r.2.mem ((c : Thread nD τ).loc main_arg0) = m ((c : Thread nD τ).loc main_arg0) :=
  (θ_run defs _ _).mono (fun r h c =>
      ⟨((h c).2 main_v4 (Pipeline.mem_restRefs_of main_v4 (by decide) (by decide))).trans (result_eq m c), kept_arg0 m r h c⟩)
    (run_main m ρ)

end Cert.KernelIdeal.Hand

end
-- ==== Proof.ReferencePlanes.lean ====
/-
  The reference's two padded slices are the specification's two shifted planes.

  The matrix has 4096 rows and 8192 columns. Cutting off the last column and padding one column in front puts, in
  column i >= 1, the matrix's entry in column i - 1, and the padding value in column 0: the plane of left neighbours.
  Cutting off the first column and padding one column behind puts, in column i <= 8190, the matrix's entry in column
  i + 1, and the padding value in column 8191: the plane of right neighbours. The padding value is the integer zero
  converted to a float, which is the float zero.
-/
import proofs.«111638_j82626580840944_2_alg».proof.Proof.Gen.ReferenceIdeal.Read
import proofs.«111638_j82626580840944_2_alg».proof.Proof.Shifted
import Idealize.ShloMosaic.Lib.KernelVsHost

noncomputable section
namespace Cert.ReferenceIdeal.Planes
open Cert.ReferenceIdeal Cert.ReferenceIdeal.Gen Idealize.ShloMosaic Idealize.ShloMosaic.TcCoe Idealize.SL.Sem Idealize.ShloMosaic.StableHlo

/-- The padding value, the integer zero converted, is the float zero at the scalar shape's one index. -/
theorem padValue_eq (i : S_.Idx) :
    (sitofp (F := Ideal) .f32 (constantI S_ 32 0#32)) i = (0 : EReal) :=
  sitofp_zero (φ := .f32)

/-- The slice of the first 8191 columns, padded with one column of the converted integer zero in front, is the plane of left neighbours. -/
theorem pad_low_eq (x : (⟨S4096x8192, .f32⟩ : BufTy).Contents (Elt Ideal)) :
    pad S4096x8192 ![0, 1] ![0, 0] ![0, 0] (extractStridedSlice S4096x8191 ![0, 0] x slices_S4096x8192_S4096x8191_0_0)
      (sitofp (F := Ideal) .f32 (constantI S_ 32 0#32)) pads_S4096x8191_S4096x8192_000_100 h_S_
    = Cert.Shifted.fromLeft (0 : EReal) x := by
  funext j
  have hj0 : (j 0).val < 4096 := ValueIdx.idx2_lt0 j
  have hj1 : (j 1).val < 8192 := ValueIdx.idx2_lt1 j
  unfold Cert.Shifted.fromLeft
  by_cases h : (j 1).val = 0
  · -- column 0 lies in the low padding of the column axis
    rw [if_pos h]
    refine (pad_apply_of_not_inside (s := S4096x8191) (t := S4096x8192) ![0, 1] ![0, 0] ![0, 0] _ _ pads_S4096x8191_S4096x8192_000_100 h_S_ j 1 ?_).trans
      (padValue_eq _)
    intro hin
    have h1 : (1 : Nat) ≤ (j 1).val := hin.1
    omega
  · -- from column 1 on, the entry is the slice's at column i - 1, which is the matrix's at column i - 1
    rw [if_neg h]
    have hk1 : (j 1).val - 1 < 8191 := by omega
    refine (pad_apply_of_inside (s := S4096x8191) (t := S4096x8192) ![0, 1] ![0, 0] ![0, 0] _ _ pads_S4096x8191_S4096x8192_000_100 h_S_ j
      (ValueIdx.ix2 (n0 := 4096) (n1 := 8191) ⟨(j 0).val, hj0⟩ ⟨(j 1).val - 1, hk1⟩) (fun a => match a with
        | ⟨0, _⟩ => by show (j 0).val = 0 + (j 0).val * (0 + 1); omega
        | ⟨1, _⟩ => by show (j 1).val = 1 + ((j 1).val - 1) * (0 + 1); omega)).trans ?_
    refine extractStridedSlice_apply (s := S4096x8192) (t := S4096x8191) ![0, 0] x slices_S4096x8192_S4096x8191_0_0 _ (Cert.Shifted.leftOf j) (fun a => match a with
        | ⟨0, _⟩ => by show (j 0).val = 0 + (j 0).val; omega
        | ⟨1, _⟩ => by show ((j 1).val + 8191) % 8192 = 0 + ((j 1).val - 1); omega)

/-- The slice of the last 8191 columns, padded with one column of the converted integer zero behind, is the plane of right neighbours. -/
theorem pad_high_eq (x : (⟨S4096x8192, .f32⟩ : BufTy).Contents (Elt Ideal)) :
    pad S4096x8192 ![0, 0] ![0, 1] ![0, 0] (extractStridedSlice S4096x8191 ![0, 1] x slices_S4096x8192_S4096x8191_0_1)
      (sitofp (F := Ideal) .f32 (constantI S_ 32 0#32)) pads_S4096x8191_S4096x8192_000_010 h_S_
    = Cert.Shifted.fromRight (0 : EReal) x := by
  funext j
  have hj0 : (j 0).val < 4096 := ValueIdx.idx2_lt0 j
  have hj1 : (j 1).val < 8192 := ValueIdx.idx2_lt1 j
  unfold Cert.Shifted.fromRight
  by_cases h : (j 1).val = 8191
  · -- column 8191 lies in the high padding of the column axis: past the slice's 8191 columns
    rw [if_pos h]
    refine (pad_apply_of_not_inside (s := S4096x8191) (t := S4096x8192) ![0, 0] ![0, 1] ![0, 0] _ _ pads_S4096x8191_S4096x8192_000_010 h_S_ j 1 ?_).trans
      (padValue_eq _)
    intro hin
    have h1 : ((j 1).val - 0) / (0 + 1) < 8191 := hin.2.2
    omega
  · -- before the last column, the entry is the slice's at column i, which is the matrix's at column i + 1
    rw [if_neg h]
    have hk1 : (j 1).val < 8191 := by omega
    refine (pad_apply_of_inside (s := S4096x8191) (t := S4096x8192) ![0, 0] ![0, 1] ![0, 0] _ _ pads_S4096x8191_S4096x8192_000_010 h_S_ j
      (ValueIdx.ix2 (n0 := 4096) (n1 := 8191) ⟨(j 0).val, hj0⟩ ⟨(j 1).val, hk1⟩) (fun a => match a with
        | ⟨0, _⟩ => by show (j 0).val = 0 + (j 0).val * (0 + 1); omega
        | ⟨1, _⟩ => by show (j 1).val = 0 + (j 1).val * (0 + 1); omega)).trans ?_
    refine extractStridedSlice_apply (s := S4096x8192) (t := S4096x8191) ![0, 1] x slices_S4096x8192_S4096x8191_0_1 _ (Cert.Shifted.rightOf j) (fun a => match a with
        | ⟨0, _⟩ => by show (j 0).val = 0 + (j 0).val; omega
        | ⟨1, _⟩ => by show ((j 1).val + 1) % 8192 = 1 + (j 1).val; omega)

end Cert.ReferenceIdeal.Planes
end
-- ==== Proof.lean ====
/- The proof of `Cert.Claim`: the three frames, `preserves` and `algebraic` for a kernel that lays a matrix `x` of 4096 rows
   and 8192 columns beside its two neighbour planes, `out[b, i, 0] = x[b, i - 1]` (zero in column 0), `out[b, i, 1] = x[b, i]`,
   `out[b, i, 2] = x[b, i + 1]` (zero in column 8191), against the same array built on the host from two padded slices.

   Nothing is computed: every entry of the result is an entry of `x` or a zero, so the two programs agree on the
   extended reals with no law of arithmetic and without the precondition. The kernel's region rotates each block of 128
   rows by one column either way and overwrites the column the rotation wrapped around with zeros; block by block that is
   the plane of left (right) neighbours (Proof/KernelIdealBlockValues.lean, Proof/KernelIdealValue.lean over the frame run
   of Proof/KernelIdealFrame.lean). The reference cuts off the last (first) column and pads a zero column in front
   (behind): the same plane (Proof/ReferencePlanes.lean, over the reference's generated run). Both programs then give the
   two planes and `x` a trailing axis of length one and join them along it — the same operations on equal operands.
   The specification of the planes is Proof/Shifted.lean. `preserves` is trivial: the idealization rewrote no operation.
   The word-level kernel's frame is the same proof read at the other instance (Proof/KernelFrame.lean). -/
import proofs.«111638_j82626580840944_2_alg».proof.Defs
import proofs.«111638_j82626580840944_2_alg».proof.Proof.Gen.Kernel
import proofs.«111638_j82626580840944_2_alg».proof.Proof.Gen.KernelIdeal
import proofs.«111638_j82626580840944_2_alg».proof.Proof.Gen.ReferenceIdeal
import proofs.«111638_j82626580840944_2_alg».proof.Proof.Gen.ReferenceIdeal.Run
import proofs.«111638_j82626580840944_2_alg».proof.Proof.Gen.ReferenceIdeal.Read
import proofs.«111638_j82626580840944_2_alg».proof.Proof.Gen.Pre_finite_inputs
import proofs.«111638_j82626580840944_2_alg».proof.Proof.KernelFrame
import proofs.«111638_j82626580840944_2_alg».proof.Proof.KernelIdealValue
import proofs.«111638_j82626580840944_2_alg».proof.Proof.ReferencePlanes
import Idealize.ShloMosaic.Adequacy
import Idealize.ShloMosaic.Init

noncomputable section

namespace Cert.Proof

open Idealize.ShloMosaic Idealize.SL.Sem

/-- The word-level kernel runs to the end, faults nowhere and leaves its argument as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the joined planes of the argument: the kernel's two output arrays are the planes of left and
    right neighbours, the reference's two padded slices are the same planes, and the broadcasts and the concatenation
    after them are the same operations. -/
theorem algebraic : Cert.algebraic_KernelIdeal_ReferenceIdeal := by
  intro m ρ m' ρ' _ hagree
  refine ⟨fun c => Cert.KernelIdeal.Hand.stacked
      (Cert.Shifted.fromLeft (0 : EReal) (Cert.KernelIdeal.Hand.X m c)) (Cert.KernelIdeal.Hand.X m c)
      (Cert.Shifted.fromRight (0 : EReal) (Cert.KernelIdeal.Hand.X m c)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Planes.pad_low_eq, Cert.ReferenceIdeal.Planes.pad_high_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
